-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S16x2048x2048.size a
  hwx0_4 : ∀ i : grid0.Coords, EltTy.bits .f32 = 32 ∨ (Rect.block (s := S16x2048x2048) S1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.AttnRow.lean ====
/-
  Scaled dot-product attention of ONE query row against a set of keys and values, on the extended reals.

  For a query row q (D numbers), keys k (N rows of D numbers) and values v (N rows of E numbers):
    score m   = (Σ_d q_d · k_{m,d}) · c      — c the scale 1/8, carried as a binary float word
    top       = the running maximum of the N scores, started from −∞ (also a float word)
    e m       = exp (score m − top)
    weight m  = e m / Σ_{m'} e m'
    mix j     = Σ_m weight m · v_{m,j}
  These are the numbers both programs produce for a row; nothing here depends on how the rows lie in memory, on the
  order a sum or a maximum is taken in, or on the inputs being finite: the two programs are compared as the SAME
  expression of the same entries.
-/
import proofs.«180571_j79903571574891_2_alg».proof.Proof.LibMaxReduce
import Idealize.ShloMosaic.PureOps.Ideal

noncomputable section

namespace Cert.AttnRow

open Idealize.ShloMosaic Cert.LibMaxReduce

variable {D N E : ℕ}

/-- The scaled score of key row `m`: the dot product of the query with that key, times the scale word's value. -/
def score (q : Fin D → EReal) (k : Fin N → Fin D → EReal) (m : Fin N) : EReal :=
  (∑ d : Fin D, q d * k m d) * Ideal.ofBits .f32 0x3E000000#32

/-- The largest score of the row (the running maximum from the word for −∞). -/
def top (q : Fin D → EReal) (k : Fin N → Fin D → EReal) : EReal :=
  foldMax (Ideal.ofBits .f32 0xFF800000#32) (score q k)

/-- The exponential of a score's distance below the largest one. -/
def expo (q : Fin D → EReal) (k : Fin N → Fin D → EReal) (m : Fin N) : EReal :=
  Ideal.exp (score q k m - top q k)

/-- The softmax weight of key row `m`. -/
def weight (q : Fin D → EReal) (k : Fin N → Fin D → EReal) (m : Fin N) : EReal :=
  Ideal.div (expo q k m) (∑ m' : Fin N, expo q k m')

/-- The attention output's entry `j`: the weighted mix of the value rows. -/
def mix (q : Fin D → EReal) (k : Fin N → Fin D → EReal) (v : Fin N → Fin E → EReal) (j : Fin E) : EReal :=
  ∑ m : Fin N, weight q k m * v m j

end Cert.AttnRow

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«180571_j79903571574891_2_alg».proof.Proof.LibKeepdims
import proofs.«180571_j79903571574891_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.KernelBlock.lean ====
/-
  What the kernel body computes from the three blocks it loads, entry by entry.

  At a grid point the body holds a block of 1024 query rows `[1, 1024, 64]`, all 2048 key rows `[1, 2048, 64]` and
  all 2048 value rows `[1, 2048, 64]` of one batch. It forms the `1024 × 2048` scores (queries against keys, both
  contracted on their last axis, times the scale), takes each row's maximum, exponentiates the distances below it,
  divides by each row's sum, and multiplies the resulting weights into the value rows. So
  • the weights it stores are, at `(r, m)`, the softmax weight of key row `m` for query row `r` of the block;
  • the output it stores is, at `(r, j)`, the weighted mix of the value rows' entries `j`.
-/
import proofs.«180571_j79903571574891_2_alg».proof.Proof.Gen.KernelIdeal.Skeleton
import proofs.«180571_j79903571574891_2_alg».proof.Proof.AttnRow
import proofs.«180571_j79903571574891_2_alg».proof.Proof.LibSoftmaxBlock
import proofs.«180571_j79903571574891_2_alg».proof.Proof.LibMatmulRhsT
import proofs.«180571_j79903571574891_2_alg».proof.Proof.LibPlainMatmul
import Idealize.ShloMosaic.Lib.ValueLayout

noncomputable section

namespace Cert.KernelIdeal.Block

open Idealize.ShloMosaic Idealize.ShloMosaic.ValueIdx Cert.KernelIdeal Cert.KernelIdeal.Gen Cert.AttnRow Cert.LibMaxReduce

/-- Query row `r` of a loaded query block. -/
abbrev qrow (P0 : Vec Ideal S1x1024x64 .f32) (r : Fin 1024) : Fin 64 → EReal := fun d => P0 (ix3 (0 : Fin 1) r d)

/-- The rows of a loaded key or value block. -/
abbrev rows (P : Vec Ideal S1x2048x64 .f32) : Fin 2048 → Fin 64 → EReal := fun m d => P (ix3 (0 : Fin 1) m d)

/-- The block of scaled scores: the queries against the keys, times the scale. -/
def scores (P0 : Vec Ideal S1x1024x64 .f32) (P1 : Vec Ideal S1x2048x64 .f32) : FVec Ideal S1024x2048 .f32 :=
  mulf (matmul dot_S1024x64_S2048x64_S1024x2048_1_1_0_0_n_n (some .fp32)
      (shapeCast S1024x64 P0 shapeCasts_S1x1024x64_S1024x64 : FVec Ideal S1024x64 .f32)
      (shapeCast S2048x64 P1 shapeCasts_S1x2048x64_S2048x64 : FVec Ideal S2048x64 .f32) (constant S1024x2048 .f32 0x00000000#32))
    (broadcast S1024x2048 (Scalar.ofBits .f32 0x3E000000#32))

/-- The exponentials of the scores' distances below their row maxima. -/
def expos (S : FVec Ideal S1024x2048 .f32) : FVec Ideal S1024x2048 .f32 :=
  exp (subf S (broadcastTo S1024x2048 (shapeCast S1024x1 (multiReduction .maximumf [1] S1024 S 0xFF800000#32 reduces_S1024x2048_S1024 (.inl rfl) rfl)
    shapeCasts_S1024_S1024x1) broadcasts_S1024x1_S1024x2048))

/-- Each entry over its row's sum. -/
def normed (X : FVec Ideal S1024x2048 .f32) : FVec Ideal S1024x2048 .f32 :=
  divf X (broadcastTo S1024x2048 (shapeCast S1024x1 (multiReduction .add [1] S1024 X 0x00000000#32 reduces_S1024x2048_S1024 (.inl rfl) rfl)
    shapeCasts_S1024_S1024x1) broadcasts_S1024x1_S1024x2048)

/-- The body's weights are the normalised exponentials of the scores. -/
theorem pay1_eq (P0 : Vec Ideal S1x1024x64 .f32) (P1 : Vec Ideal S1x2048x64 .f32) :
    k0_pay1 (F := Ideal) P0 P1 = normed (expos (scores P0 P1)) := rfl

/-- A score at `(r, m)`: query row `r` against key row `m`. -/
theorem scores_apply (P0 : Vec Ideal S1x1024x64 .f32) (P1 : Vec Ideal S1x2048x64 .f32) (r : Fin 1024) (m : Fin 2048) :
    scores P0 P1 (ix2 r m) = score (qrow P0 r) (rows P1) m := by
  unfold scores score
  refine congrArg (· * Ideal.ofBits .f32 0x3E000000#32) ?_
  refine (Cert.LibMatmulRhsT.matmul_transposedRhs_zero_apply 1024 64 2048 (φ₁ := .f32) (φ₂ := .f32) (some .fp32)
    (shapeCast S1024x64 P0 shapeCasts_S1x1024x64_S1024x64) (shapeCast S2048x64 P1 shapeCasts_S1x2048x64_S2048x64) r m).trans ?_
  refine Finset.sum_congr rfl fun d _ => ?_
  rw [shapeCast_1ab_ab_apply, shapeCast_1ab_ab_apply]

/-- The weights at `(r, m)`. -/
theorem pay1_apply (P0 : Vec Ideal S1x1024x64 .f32) (P1 : Vec Ideal S1x2048x64 .f32) (r : Fin 1024) (m : Fin 2048) :
    k0_pay1 (F := Ideal) P0 P1 (ix2 r m) = weight (qrow P0 r) (rows P1) m := by
  rw [pay1_eq]
  have hrow : (fun k : Fin 2048 => scores P0 P1 (ix2 r k)) = score (qrow P0 r) (rows P1) := funext (scores_apply P0 P1 r)
  have hE : ∀ m' : Fin 2048, expos (scores P0 P1) (ix2 r m') = expo (qrow P0 r) (rows P1) m' := fun m' => by
    refine (Cert.LibSoftmaxBlock.expBelowRowMax_apply (scores P0 P1) 0xFF800000#32 reduces_S1024x2048_S1024 (.inl rfl) rfl
      shapeCasts_S1024_S1024x1 broadcasts_S1024x1_S1024x2048 r m').trans ?_
    rw [hrow, scores_apply]
    rfl
  refine (Cert.LibSoftmaxBlock.overRowSum_apply (expos (scores P0 P1)) 0x00000000#32 reduces_S1024x2048_S1024 (.inl rfl) rfl
    shapeCasts_S1024_S1024x1 broadcasts_S1024x1_S1024x2048 r m).trans ?_
  unfold weight
  rw [hE m]
  exact congrArg (Ideal.div _) (Finset.sum_congr rfl fun k _ => hE k)

/-- The output block at `(u, r, j)`: the weights of query row `r` mixed into the value rows' entries `j`. -/
theorem pay3_apply (P0 : Vec Ideal S1x1024x64 .f32) (P1 : Vec Ideal S1x2048x64 .f32) (P2 : Vec Ideal S1x2048x64 .f32)
    (u : Fin 1) (r : Fin 1024) (j : Fin 64) :
    k0_pay3 (F := Ideal) P0 P1 P2 (ix3 u r j) = mix (qrow P0 r) (rows P1) (rows P2) j := by
  have h : k0_pay3 (F := Ideal) P0 P1 P2 = shapeCast S1x1024x64 (matmul dot_S1024x2048_S2048x64_S1024x64_1_0_0_1_n_n (some .fp32)
      (k0_pay1 (F := Ideal) P0 P1) (shapeCast S2048x64 P2 shapeCasts_S1x2048x64_S2048x64 : FVec Ideal S2048x64 .f32)
      (constant S1024x64 .f32 0x00000000#32)) shapeCasts_S1024x64_S1x1024x64 := rfl
  rw [h]
  refine (shapeCast_ab_1ab_apply _ shapeCasts_S1024x64_S1x1024x64 u r j).trans ?_
  refine (matmul_plain_zero_apply 1024 2048 64 (φ₁ := .f32) (φ₂ := .f32) (some .fp32) (k0_pay1 (F := Ideal) P0 P1)
    (shapeCast S2048x64 P2 shapeCasts_S1x2048x64_S2048x64) r j).trans ?_
  unfold mix
  refine Finset.sum_congr rfl fun m _ => ?_
  rw [pay1_apply, shapeCast_1ab_ab_apply]

end Cert.KernelIdeal.Block

end
-- ==== Proof.AttnArrays.lean ====
/-
  The two result arrays as functions of the three argument arrays, entry by entry.

  With queries, keys and values `[16, 2048, 64]` (batch, row, feature):
  • `weights Q K` is `[16, 2048, 2048]`: at `(b, n, m)` the softmax weight of key row `m` for query row `n`, both of
    batch `b`;
  • `output Q K V` is `[16, 2048, 64]`: at `(b, n, j)` those weights mixed into batch `b`'s value rows' entries `j`.
  Each entry depends on ONE query row and on ALL key (and value) rows of its batch.
-/
import proofs.«180571_j79903571574891_2_alg».proof.Proof.AttnRow
import Idealize.ShloMosaic.Lib.ValueIdx

noncomputable section

namespace Cert.AttnArrays

open Idealize.ShloMosaic Idealize.ShloMosaic.ValueIdx Cert.AttnRow

/-- The attention weights of every batch and query row. -/
def weights (Q K : (⟨3, ![16, 2048, 64]⟩ : Shape).Idx → EReal) : (⟨3, ![16, 2048, 2048]⟩ : Shape).Idx → EReal := fun i =>
  weight (fun d : Fin 64 => Q (ix3 (n0 := 16) (n1 := 2048) (i 0) (i 1) d))
    (fun (m : Fin 2048) (d : Fin 64) => K (ix3 (n0 := 16) (i 0) m d)) (i 2)

/-- The attention output of every batch and query row. -/
def output (Q K V : (⟨3, ![16, 2048, 64]⟩ : Shape).Idx → EReal) : (⟨3, ![16, 2048, 64]⟩ : Shape).Idx → EReal := fun i =>
  mix (fun d : Fin 64 => Q (ix3 (n0 := 16) (n1 := 2048) (i 0) (i 1) d))
    (fun (m : Fin 2048) (d : Fin 64) => K (ix3 (n0 := 16) (i 0) m d))
    (fun (m : Fin 2048) (j : Fin 64) => V (ix3 (n0 := 16) (i 0) m j)) (i 2)

theorem weights_ix3 (Q K : (⟨3, ![16, 2048, 64]⟩ : Shape).Idx → EReal) (b : Fin 16) (n m : Fin 2048) :
    weights Q K (ix3 b n m) = weight (fun d : Fin 64 => Q (ix3 b n d)) (fun (m' : Fin 2048) (d : Fin 64) => K (ix3 b m' d)) m := rfl

theorem output_ix3 (Q K V : (⟨3, ![16, 2048, 64]⟩ : Shape).Idx → EReal) (b : Fin 16) (n : Fin 2048) (j : Fin 64) :
    output Q K V (ix3 b n j) = mix (fun d : Fin 64 => Q (ix3 b n d)) (fun (m' : Fin 2048) (d : Fin 64) => K (ix3 b m' d))
      (fun (m' : Fin 2048) (j' : Fin 64) => V (ix3 b m' j')) j := rfl

end Cert.AttnArrays

end
-- ==== Proof.KernelArrays.lean ====
/-
  The kernel's two result arrays after its run are the attention weights and the attention output of its arguments.

  The grid has one point per (batch `b`, query tile `qi`). At that point the query window holds rows
  `1024·qi … 1024·qi + 1023` of batch `b`, the key and value windows hold ALL rows of batch `b`, and the two result
  windows take rows `1024·qi …` of batch `b`. An entry `(b, n, ·)` of either result depends on query row `n` and on
  all key and value rows of batch `b` only — exactly what the point that covers row `n` has loaded — so each point
  writes back its block of the whole-array functions `weights` and `output`, and the 32 blocks tile both arrays.
-/
import proofs.«180571_j79903571574891_2_alg».proof.Proof.Gen.KernelIdeal.Value
import proofs.«180571_j79903571574891_2_alg».proof.Proof.KernelBlock
import proofs.«180571_j79903571574891_2_alg».proof.Proof.AttnArrays

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open Cert.AttnArrays Cert.AttnRow

variable (m : (ℓ : Loc nD τ sig) → Buf (Elt Ideal) ℓ) (ρ : Dev nD → PrngReg)

/-! ## A block of each result from the loaded blocks, when the loaded rows are the arrays' rows -/

/-- If the loaded query row `r` is row `n` of batch `b` and the loaded key rows are batch `b`'s, the stored weights at
    `(u, r, mm)` are the attention weights at `(b, n, mm)`. -/
theorem weights_block (P0 : Vec Ideal S1x1024x64 .f32) (P1 : Vec Ideal S1x2048x64 .f32)
    (Q K : (⟨3, ![16, 2048, 64]⟩ : Shape).Idx → EReal) (u : Fin 1) (r : Fin 1024) (mm : Fin 2048) (b : Fin 16) (n : Fin 2048)
    (hq : ∀ d : Fin 64, P0 (ix3 (0 : Fin 1) r d) = Q (ix3 b n d))
    (hk : ∀ (m' : Fin 2048) (d : Fin 64), P1 (ix3 (0 : Fin 1) m' d) = K (ix3 b m' d)) :
    k0_pay2 (F := Ideal) P0 P1 (ix3 u r mm) = weights Q K (ix3 b n mm) := by
  have e1 : Block.qrow P0 r = fun d : Fin 64 => Q (ix3 b n d) := funext hq
  have e2 : Block.rows P1 = fun (m' : Fin 2048) (d : Fin 64) => K (ix3 b m' d) := funext fun m' => funext (hk m')
  rw [Cert.KernelIdeal.Value.lay4_0_eq]
  refine (shapeCast_ab_1ab_apply (k0_pay1 (F := Ideal) P0 P1) shapeCasts_S1024x2048_S1x1024x2048 u r mm).trans ?_
  rw [Block.pay1_apply, e1, e2, weights_ix3]

/-- Likewise the stored output at `(u, r, j)` is the attention output at `(b, n, j)`, the loaded value rows being batch
    `b`'s. -/
theorem output_block (P0 : Vec Ideal S1x1024x64 .f32) (P1 P2 : Vec Ideal S1x2048x64 .f32)
    (Q K V : (⟨3, ![16, 2048, 64]⟩ : Shape).Idx → EReal) (u : Fin 1) (r : Fin 1024) (j : Fin 64) (b : Fin 16) (n : Fin 2048)
    (hq : ∀ d : Fin 64, P0 (ix3 (0 : Fin 1) r d) = Q (ix3 b n d))
    (hk : ∀ (m' : Fin 2048) (d : Fin 64), P1 (ix3 (0 : Fin 1) m' d) = K (ix3 b m' d))
    (hv : ∀ (m' : Fin 2048) (j' : Fin 64), P2 (ix3 (0 : Fin 1) m' j') = V (ix3 b m' j')) :
    k0_pay3 (F := Ideal) P0 P1 P2 (ix3 u r j) = output Q K V (ix3 b n j) := by
  have e1 : Block.qrow P0 r = fun d : Fin 64 => Q (ix3 b n d) := funext hq
  have e2 : Block.rows P1 = fun (m' : Fin 2048) (d : Fin 64) => K (ix3 b m' d) := funext fun m' => funext (hk m')
  have e3 : Block.rows P2 = fun (m' : Fin 2048) (j' : Fin 64) => V (ix3 b m' j') := funext fun m' => funext (hv m')
  rw [Block.pay3_apply, e1, e2, e3, output_ix3]

/-! ## Where the windows sit at a grid point -/

theorem hz : (![0, 0, 0] : Fin 3 → Nat) = fun _ => 0 := funext fun a => by fin_cases a <;> rfl

/-- The printed index maps, decided over the 32 points: the query window and both result windows sit at the same
    (batch, tile) block; the key and value windows sit at that batch's one block; no window moves along the last axis. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) ≤ 15 ∧ win0_4.index t (1 : Fin 3) ≤ 1 :=
  (by decide +kernel : ∀ t : Fin grid0.N, _)

/-- Every (batch, tile) block is some point's, for either result window. -/
theorem idx_onto4 : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

theorem idx_onto3 : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-! ## The input windows' blocks read at an entry -/

/-- The query window's block at a point, read at `x`, is the query array at the index `k` whose coordinates are
    block index × block size + the coordinate inside the block. -/
theorem iblk0_apply (c : Dev nD) (t : Fin cfg0.N) (x : S1x1024x64.Idx) (k : S16x2048x64.Idx)
    (h0 : win0_0.index t (0 : Fin 3) * 1 + 1 * (x 0).val = (k 0).val)
    (h1 : win0_0.index t (1 : Fin 3) * 1024 + 1 * (x 1).val = (k 1).val)
    (h2 : win0_0.index t (2 : Fin 3) * 64 + 1 * (x 2).val = (k 2).val) :
    (iblk m c 0 t : Vec Ideal S1x1024x64 .f32) x = (V m c main_arg0 : S16x2048x64.Idx → EReal) k := by
  unfold iblk
  rw [View.read_apply]
  show V m c main_arg0 _ = V m c main_arg0 _
  refine congrArg (V m c main_arg0) ?_
  funext a; apply Fin.ext
  match a with
  | ⟨0, _⟩ => exact h0
  | ⟨1, _⟩ => exact h1
  | ⟨2, _⟩ => exact h2

/-- The key window's block at a point, read at `x`. -/
theorem iblk1_apply (c : Dev nD) (t : Fin cfg0.N) (x : S1x2048x64.Idx) (k : S16x2048x64.Idx)
    (h0 : win0_1.index t (0 : Fin 3) * 1 + 1 * (x 0).val = (k 0).val)
    (h1 : win0_1.index t (1 : Fin 3) * 2048 + 1 * (x 1).val = (k 1).val)
    (h2 : win0_1.index t (2 : Fin 3) * 64 + 1 * (x 2).val = (k 2).val) :
    (iblk m c 1 t : Vec Ideal S1x2048x64 .f32) x = (V m c main_arg1 : S16x2048x64.Idx → EReal) k := by
  unfold iblk
  rw [View.read_apply]
  show V m c main_arg1 _ = V m c main_arg1 _
  refine congrArg (V m c main_arg1) ?_
  funext a; apply Fin.ext
  match a with
  | ⟨0, _⟩ => exact h0
  | ⟨1, _⟩ => exact h1
  | ⟨2, _⟩ => exact h2

/-- The value window's block at a point, read at `x`. -/
theorem iblk2_apply (c : Dev nD) (t : Fin cfg0.N) (x : S1x2048x64.Idx) (k : S16x2048x64.Idx)
    (h0 : win0_2.index t (0 : Fin 3) * 1 + 1 * (x 0).val = (k 0).val)
    (h1 : win0_2.index t (1 : Fin 3) * 2048 + 1 * (x 1).val = (k 1).val)
    (h2 : win0_2.index t (2 : Fin 3) * 64 + 1 * (x 2).val = (k 2).val) :
    (iblk m c 2 t : Vec Ideal S1x2048x64 .f32) x = (V m c main_arg2 : S16x2048x64.Idx → EReal) k := by
  unfold iblk
  rw [View.read_apply]
  show V m c main_arg2 _ = V m c main_arg2 _
  refine congrArg (V m c main_arg2) ?_
  funext a; apply Fin.ext
  match a with
  | ⟨0, _⟩ => exact h0
  | ⟨1, _⟩ => exact h1
  | ⟨2, _⟩ => exact h2

/-! ## What each point writes back -/

/-- Point `t` writes back block `t` of the attention weights of the argument arrays. -/
theorem flushed4_eq (c : Dev nD) (t : Fin cfg0.N) :
    (dats m 0 c).flushed 4 t
      = ((cfg0.win 4).blk t).view.read (Elt Ideal) (weights (V m c main_arg0) (V m c main_arg1)) := by
  rw [Cert.KernelIdeal.Value.flushed4]
  unfold out0_4
  rw [View.canon_unit_zero hz]
  simp only [View.ld_unit_zero (S := S1x1024x64) hz, View.ld_unit_zero (S := S1x2048x64) hz]
  obtain ⟨e00, e01, e02, e10, e11, e12, -, -, -, -, -, -, e42, b0, b1⟩ := idx_facts t
  funext y
  obtain ⟨u, r, mm, rfl⟩ : ∃ (u : Fin 1) (r : Fin 1024) (mm : Fin 2048), (y : S1x1024x2048.Idx) = ix3 u r mm :=
    ⟨y 0, y 1, y 2, eq_ix3 y⟩
  show k0_pay2 (F := Ideal) (iblk m c 0 t) (iblk m c 1 t) (ix3 u r mm)
    = weights (V m c main_arg0) (V m c main_arg1) (((cfg0.win 4).blk t).view.emb (ix3 u r mm))
  obtain ⟨b, n, m2, hi⟩ : ∃ (b : Fin 16) (n : Fin 2048) (m2 : Fin 2048),
      (((cfg0.win 4).blk t).view.emb (ix3 u r mm) : S16x2048x2048.Idx) = ix3 b n m2 := ⟨_, _, _, eq_ix3 _⟩
  have hb : win0_4.index t (0 : Fin 3) * 1 + 1 * u.val = b.val := congrArg Fin.val (congrFun hi 0)
  have hn : win0_4.index t (1 : Fin 3) * 1024 + 1 * r.val = n.val := congrArg Fin.val (congrFun hi 1)
  have hm : win0_4.index t (2 : Fin 3) * 2048 + 1 * mm.val = m2.val := congrArg Fin.val (congrFun hi 2)
  have hu : u.val = 0 := by have := u.isLt; omega
  obtain rfl : m2 = mm := Fin.ext (by omega)
  rw [hi]
  refine weights_block (iblk m c 0 t) (iblk m c 1 t) (V m c main_arg0) (V m c main_arg1) u r m2 b n (fun d => ?_) (fun m' d => ?_)
  · refine iblk0_apply m c t (ix3 (0 : Fin 1) r d) (ix3 b n d) ?_ ?_ ?_
    · show win0_0.index t (0 : Fin 3) * 1 + 1 * 0 = b.val; omega
    · show win0_0.index t (1 : Fin 3) * 1024 + 1 * r.val = n.val; omega
    · show win0_0.index t (2 : Fin 3) * 64 + 1 * d.val = d.val; omega
  · refine iblk1_apply m c t (ix3 (0 : Fin 1) m' d) (ix3 b m' d) ?_ ?_ ?_
    · show win0_1.index t (0 : Fin 3) * 1 + 1 * 0 = b.val; omega
    · show win0_1.index t (1 : Fin 3) * 2048 + 1 * m'.val = m'.val; omega
    · show win0_1.index t (2 : Fin 3) * 64 + 1 * d.val = d.val; omega

/-- Point `t` writes back block `t` of the attention output of the argument arrays. -/
theorem flushed3_eq (c : Dev nD) (t : Fin cfg0.N) :
    (dats m 0 c).flushed 3 t
      = ((cfg0.win 3).blk t).view.read (Elt Ideal) (output (V m c main_arg0) (V m c main_arg1) (V m c main_arg2)) := by
  rw [Cert.KernelIdeal.Value.flushed3]
  unfold out0_3
  rw [View.canon_unit_zero hz]
  simp only [View.ld_unit_zero (S := S1x1024x64) hz, View.ld_unit_zero (S := S1x2048x64) hz]
  obtain ⟨e00, e01, e02, e10, e11, e12, e20, e21, e22, e30, e31, e32, -, b0, b1⟩ := idx_facts t
  funext y
  obtain ⟨u, r, j, rfl⟩ : ∃ (u : Fin 1) (r : Fin 1024) (j : Fin 64), (y : S1x1024x64.Idx) = ix3 u r j :=
    ⟨y 0, y 1, y 2, eq_ix3 y⟩
  show k0_pay3 (F := Ideal) (iblk m c 0 t) (iblk m c 1 t) (iblk m c 2 t) (ix3 u r j)
    = output (V m c main_arg0) (V m c main_arg1) (V m c main_arg2) (((cfg0.win 3).blk t).view.emb (ix3 u r j))
  obtain ⟨b, n, j2, hi⟩ : ∃ (b : Fin 16) (n : Fin 2048) (j2 : Fin 64),
      (((cfg0.win 3).blk t).view.emb (ix3 u r j) : S16x2048x64.Idx) = ix3 b n j2 := ⟨_, _, _, eq_ix3 _⟩
  have hb : win0_3.index t (0 : Fin 3) * 1 + 1 * u.val = b.val := congrArg Fin.val (congrFun hi 0)
  have hn : win0_3.index t (1 : Fin 3) * 1024 + 1 * r.val = n.val := congrArg Fin.val (congrFun hi 1)
  have hj : win0_3.index t (2 : Fin 3) * 64 + 1 * j.val = j2.val := congrArg Fin.val (congrFun hi 2)
  have hu : u.val = 0 := by have := u.isLt; omega
  obtain rfl : j2 = j := Fin.ext (by omega)
  rw [hi]
  refine output_block (iblk m c 0 t) (iblk m c 1 t) (iblk m c 2 t) (V m c main_arg0) (V m c main_arg1) (V m c main_arg2)
    u r j2 b n (fun d => ?_) (fun m' d => ?_) (fun m' j' => ?_)
  · refine iblk0_apply m c t (ix3 (0 : Fin 1) r d) (ix3 b n d) ?_ ?_ ?_
    · show win0_0.index t (0 : Fin 3) * 1 + 1 * 0 = b.val; omega
    · show win0_0.index t (1 : Fin 3) * 1024 + 1 * r.val = n.val; omega
    · show win0_0.index t (2 : Fin 3) * 64 + 1 * d.val = d.val; omega
  · refine iblk1_apply m c t (ix3 (0 : Fin 1) m' d) (ix3 b m' d) ?_ ?_ ?_
    · show win0_1.index t (0 : Fin 3) * 1 + 1 * 0 = b.val; omega
    · show win0_1.index t (1 : Fin 3) * 2048 + 1 * m'.val = m'.val; omega
    · show win0_1.index t (2 : Fin 3) * 64 + 1 * d.val = d.val; omega
  · refine iblk2_apply m c t (ix3 (0 : Fin 1) m' j') (ix3 b m' j') ?_ ?_ ?_
    · show win0_2.index t (0 : Fin 3) * 1 + 1 * 0 = b.val; omega
    · show win0_2.index t (1 : Fin 3) * 2048 + 1 * m'.val = m'.val; omega
    · show win0_2.index t (2 : Fin 3) * 64 + 1 * j'.val = j'.val; omega

/-! ## The blocks tile the arrays -/

/-- An index is in point `t`'s block of the weights array iff each coordinate is in the block's range on its axis. -/
theorem mem_blk4 (t : Fin cfg0.N) (i : S16x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v0_1).slice (win0_4.rect t)).set ↔ _
  rw [View.set_slice_whole, Rect.mem_set_unit]
  exact Iff.rfl

/-- The same for the output array. -/
theorem mem_blk3 (t : Fin cfg0.N) (i : S16x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0_0).slice (win0_3.rect t)).set ↔ _
  rw [View.set_slice_whole, Rect.mem_set_unit]
  exact Iff.rfl

/-- Every index of the weights array is in the block of the point of its batch and of its row's tile. -/
theorem cover4 (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto4 ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Every index of the output array likewise. -/
theorem cover3 (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The arrays after the run -/

/-- The weights array ends holding the attention weights of the argument arrays. -/
theorem final4 (c : Dev nD) : (dats m 0 c).arrAt 4 cfg0.N
    = weights (m ((c : Thread nD τ).loc main_arg0)) (m ((c : Thread nD τ).loc main_arg1)) :=
  (dats m 0 c).arrAt_eq_of_cover 4 (weights (V m c main_arg0) (V m c main_arg1)) (fun t _ => flushed4_eq m c t) cover4

/-- The output array ends holding the attention output of the argument arrays. -/
theorem final3 (c : Dev nD) : (dats m 0 c).arrAt 3 cfg0.N
    = output (m ((c : Thread nD τ).loc main_arg0)) (m ((c : Thread nD τ).loc main_arg1)) (m ((c : Thread nD τ).loc main_arg2)) :=
  (dats m 0 c).arrAt_eq_of_cover 3 (output (V m c main_arg0) (V m c main_arg1) (V m c main_arg2)) (fun t _ => flushed3_eq m c t) cover3

/-- Every weakly fair execution of the kernel's program ends with the two results at the attention output and the
    attention weights of the arguments, the arguments unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2))
      ∧ r.2.mem ((c : Thread nD τ).loc main_v0_1)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Arrays

end
-- ==== Proof.LibHostMax3.lean ====
/-
  The host's maximum reduce over the LAST axis of a rank-3 array `[a, b, c]`, read at `(p, q)`, at the ideal values.

  A one-operand reduce whose body is a maximum is, at each kept index, the running maximum of the reduced entries from
  the initial value's element — a fold of `max` whose order does not matter. Over the last axis at `(p, q)` the
  entries are `x (p, q, k)`.
-/
import proofs.«180571_j79903571574891_2_alg».proof.Proof.LibMaxReduce

noncomputable section

namespace Cert.LibHostMax3

open Idealize.ShloMosaic Idealize.ShloMosaic.ValueIdx Cert.LibMaxReduce

/-- The host's reduce with a maximum body over the last axis of an `[a, b, c]` array, read at `(p, q)`: the running
    maximum of the entries `(p, q, ·)` from the initial value's element. -/
theorem hostReduce_maximumf_lastAxis3_apply {a b c : ℕ} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = foldMax (init (Shape.Idx.first hu)) (fun k : Fin c => x (ix3 p q k)) := by
  refine (Host.reduce_eq_fold_single (FloatOps.maximumf (F := Ideal) (φ := .f32)) x init h' h hu (ix2 p q)).trans ?_
  unfold foldMax
  refine congrArg (fun f : Fin c → EReal => Finset.fold max (init (Shape.Idx.first hu)) f Finset.univ) (funext fun k => congrArg x ?_)
  funext ax; apply Fin.ext
  match ax with
  | ⟨0, _⟩ => rfl
  | ⟨1, _⟩ => rfl
  | ⟨2, _⟩ => rfl

end Cert.LibHostMax3

end
-- ==== Proof.RefRows.lean ====
/-
  What the reference computes, entry by entry.

  The reference forms all the scores of a batch at once (queries against keys, contracted on their last axis, times
  the scale), takes each row's maximum — joined once more with −∞, which changes nothing —, exponentiates the
  distances below it, divides by each row's sum, and multiplies the weights into the value rows. Read one operation
  at a time:
  • the weights at `(b, n, m)` are the softmax weight of key row `m` for query row `n` of batch `b`;
  • the output at `(b, n, j)` is the weighted mix of batch `b`'s value rows' entries `j`.
-/
import proofs.«180571_j79903571574891_2_alg».proof.Proof.Gen.ReferenceIdeal.Read
import proofs.«180571_j79903571574891_2_alg».proof.Proof.AttnRow
import proofs.«180571_j79903571574891_2_alg».proof.Proof.LibHostMax3

noncomputable section

namespace Cert.ReferenceIdeal.Rows

open Idealize.ShloMosaic Idealize.ShloMosaic.ValueIdx Cert.ReferenceIdeal Cert.ReferenceIdeal.Gen Cert.ReferenceIdeal.Read
open Cert.AttnRow Cert.LibMaxReduce

/-- Row `n` of batch `b` of a `[16, 2048, 64]` array. -/
abbrev row (x : (⟨S16x2048x64, .f32⟩ : BufTy).Contents (Elt Ideal)) (b : Fin 16) (n : Fin 2048) : Fin 64 → EReal :=
  fun d => x (ix3 b n d)

/-- The rows of batch `b`. -/
abbrev rows (x : (⟨S16x2048x64, .f32⟩ : BufTy).Contents (Elt Ideal)) (b : Fin 16) : Fin 2048 → Fin 64 → EReal :=
  fun m d => x (ix3 b m d)

variable (x0 x1 x2 : (⟨S16x2048x64, .f32⟩ : BufTy).Contents (Elt Ideal))

/-- The scaled scores. -/
theorem v2_apply (b : Fin 16) (n m : Fin 2048) :
    val_main_v2 (F := Ideal) x0 x1 (ix3 b n m) = score (row x0 b n) (rows x1 b) m := by
  rw [val_main_v2_apply, val_main_v0_apply, val_main_v1_apply, val_main_cst_apply]
  unfold score
  refine congrArg (· * Ideal.ofBits .f32 0x3E000000#32) (Finset.sum_congr rfl fun d _ => ?_)
  have hl : lidx_main_v0 (ix3 b n m) d = ix3 b n d :=
    funext fun a => Fin.ext (by match a with | ⟨0, _⟩ => rfl | ⟨1, _⟩ => rfl | ⟨2, _⟩ => rfl)
  have hr : ridx_main_v0 (ix3 b n m) d = ix3 b m d :=
    funext fun a => Fin.ext (by match a with | ⟨0, _⟩ => rfl | ⟨1, _⟩ => rfl | ⟨2, _⟩ => rfl)
  rw [hl, hr]

/-- The row maxima: joining −∞ in once more leaves the running maximum as it is. -/
theorem v5_apply (b : Fin 16) (n : Fin 2048) :
    val_main_v5 (F := Ideal) x0 x1 (ix2 b n) = top (row x0 b n) (rows x1 b) := by
  rw [val_main_v5_apply, val_main_v4_apply, val_main_cst_1_apply]
  unfold val_main_v3 top
  have hred : S16x2048x2048.Reduces [2] S16x2048 := by decide
  refine (congrArg (max (Ideal.ofBits .f32 0xFF800000#32))
    (Cert.LibHostMax3.hostReduce_maximumf_lastAxis3_apply (val_main_v2 (F := Ideal) x0 x1) (val_main_cst_0 (F := Ideal))
      reducesTo_S16x2048x2048_S16x2048_d2 hred h_S_ b n)).trans ?_
  have hrow : (fun k : Fin 2048 => val_main_v2 (F := Ideal) x0 x1 (ix3 b n k)) = score (row x0 b n) (rows x1 b) :=
    funext (v2_apply x0 x1 b n)
  rw [hrow]
  exact max_foldMax _ _

/-- The exponentials. -/
theorem v9_apply (b : Fin 16) (n m : Fin 2048) :
    val_main_v9 (F := Ideal) x0 x1 (ix3 b n m) = expo (row x0 b n) (rows x1 b) m := by
  rw [val_main_v9_apply, val_main_v8_apply, v2_apply, val_main_v7_apply, val_main_v6_apply]
  have hi : idx_main_v6 (idx_main_v7 (ix3 b n m)) = ix2 b n :=
    funext fun a => Fin.ext (by match a with | ⟨0, _⟩ => rfl | ⟨1, _⟩ => rfl)
  rw [hi, v5_apply]
  rfl

/-- The row sums: the zero they start from adds nothing. -/
theorem v10_apply (b : Fin 16) (n : Fin 2048) :
    val_main_v10 (F := Ideal) x0 x1 (ix2 b n) = ∑ m : Fin 2048, expo (row x0 b n) (rows x1 b) m := by
  rw [val_main_v10_apply, val_main_cst_2_apply]
  show Ideal.ofBits .f32 0x00000000#32 + _ = _
  rw [Ideal.ofBits_zero_f32, zero_add]
  refine Finset.sum_congr rfl fun k _ => ?_
  have hi : idx_main_v10 (ix2 b n) k = ix3 b n k :=
    funext fun a => Fin.ext (by match a with | ⟨0, _⟩ => rfl | ⟨1, _⟩ => rfl | ⟨2, _⟩ => rfl)
  rw [hi, v9_apply]

/-- The weights. -/
theorem v13_apply (b : Fin 16) (n m : Fin 2048) :
    val_main_v13 (F := Ideal) x0 x1 (ix3 b n m) = weight (row x0 b n) (rows x1 b) m := by
  rw [val_main_v13_apply, v9_apply, val_main_v12_apply, val_main_v11_apply]
  have hi : idx_main_v11 (idx_main_v12 (ix3 b n m)) = ix2 b n :=
    funext fun a => Fin.ext (by match a with | ⟨0, _⟩ => rfl | ⟨1, _⟩ => rfl)
  rw [hi, v10_apply]
  rfl

/-- The output. -/
theorem v14_apply (b : Fin 16) (n : Fin 2048) (j : Fin 64) :
    val_main_v14 (F := Ideal) x0 x1 x2 (ix3 b n j) = mix (row x0 b n) (rows x1 b) (rows x2 b) j := by
  rw [val_main_v14_apply]
  unfold mix
  refine Finset.sum_congr rfl fun k _ => ?_
  have hl : lidx_main_v14 (ix3 b n j) k = ix3 b n k :=
    funext fun a => Fin.ext (by match a with | ⟨0, _⟩ => rfl | ⟨1, _⟩ => rfl | ⟨2, _⟩ => rfl)
  have hr : ridx_main_v14 (ix3 b n j) k = ix3 b k j :=
    funext fun a => Fin.ext (by match a with | ⟨0, _⟩ => rfl | ⟨1, _⟩ => rfl | ⟨2, _⟩ => rfl)
  rw [hl, hr, v13_apply]

end Cert.ReferenceIdeal.Rows

end
-- ==== Proof.RefArrays.lean ====
/-
  The reference's two results are the attention weights and the attention output of its arguments: every entry
  `(b, n, ·)` is read off the reference one operation at a time and is the row-level expression of query row `n` and the
  key and value rows of batch `b`.
-/
import proofs.«180571_j79903571574891_2_alg».proof.Proof.RefRows
import proofs.«180571_j79903571574891_2_alg».proof.Proof.AttnArrays

noncomputable section

namespace Cert.ReferenceIdeal.Rows

open Idealize.ShloMosaic Idealize.ShloMosaic.ValueIdx Cert.ReferenceIdeal Cert.ReferenceIdeal.Gen Cert.ReferenceIdeal.Read
open Cert.AttnArrays

variable (x0 x1 x2 : (⟨S16x2048x64, .f32⟩ : BufTy).Contents (Elt Ideal))

/-- The reference's second result is the attention weights. -/
theorem weights_eq : val_main_v13 (F := Ideal) x0 x1 = weights x0 x1 := by
  funext i
  obtain ⟨b, n, m, rfl⟩ : ∃ (b : Fin 16) (n : Fin 2048) (m : Fin 2048), i = ix3 b n m := ⟨i 0, i 1, i 2, eq_ix3 i⟩
  exact v13_apply x0 x1 b n m

/-- The reference's first result is the attention output. -/
theorem output_eq : val_main_v14 (F := Ideal) x0 x1 x2 = output x0 x1 x2 := by
  funext i
  obtain ⟨b, n, j, rfl⟩ : ∃ (b : Fin 16) (n : Fin 2048) (j : Fin 64), i = ix3 b n j := ⟨i 0, i 1, i 2, eq_ix3 i⟩
  exact v14_apply x0 x1 x2 b n j

end Cert.ReferenceIdeal.Rows

end
-- ==== Proof.lean ====
/-
  Scaled dot-product attention with the softmax weights returned: a tiled kernel against the whole-array formula.

  With queries Q, keys K and values V of shape [16, 2048, 64], both programs return
    weights (b, n, m) = exp (s(b,n,m) − max_m' s(b,n,m')) / Σ_m' exp (s(b,n,m') − max_m'' s(b,n,m'')),
        where s(b, n, m) = (Σ_d Q(b,n,d) · K(b,m,d)) · 1/8,
    output (b, n, j) = Σ_m weights (b, n, m) · V(b, m, j).
  The kernel works on tiles of 1024 query rows of one batch against all of that batch's key and value rows; the
  reference forms whole arrays. On the extended reals the two are the SAME expression of the same entries: the scale
  is the same binary float on both sides, a sum or a running maximum does not depend on the order it is taken in, and
  the reference's one extra step — joining −∞ into a maximum that already started from −∞ — changes nothing. No
  property of the inputs is used.

  The pieces: the row-level expression (AttnRow), the two result arrays as functions of the arguments (AttnArrays),
  the kernel's stored blocks entry by entry (KernelBlock) and its result arrays after the run (KernelArrays), the
  reference read one operation at a time (RefRows, RefArrays). The kernel's idealization rewrote nothing, so that
  conjunct is trivial; the three frames are the programs' own runs with the results dropped.
-/
import proofs.«180571_j79903571574891_2_alg».proof.Defs
import proofs.«180571_j79903571574891_2_alg».proof.Proof.Gen.Kernel
import proofs.«180571_j79903571574891_2_alg».proof.Proof.Gen.Kernel.Skeleton
import proofs.«180571_j79903571574891_2_alg».proof.Proof.Gen.Kernel.Launch
import proofs.«180571_j79903571574891_2_alg».proof.Proof.Gen.Kernel.Points
import proofs.«180571_j79903571574891_2_alg».proof.Proof.Gen.Kernel.Frame
import proofs.«180571_j79903571574891_2_alg».proof.Proof.Gen.KernelIdeal
import proofs.«180571_j79903571574891_2_alg».proof.Proof.Gen.KernelIdeal.Skeleton
import proofs.«180571_j79903571574891_2_alg».proof.Proof.Gen.KernelIdeal.Launch
import proofs.«180571_j79903571574891_2_alg».proof.Proof.Gen.KernelIdeal.Points
import proofs.«180571_j79903571574891_2_alg».proof.Proof.Gen.KernelIdeal.Frame
import proofs.«180571_j79903571574891_2_alg».proof.Proof.Gen.KernelIdeal.Value
import proofs.«180571_j79903571574891_2_alg».proof.Proof.Gen.ReferenceIdeal
import proofs.«180571_j79903571574891_2_alg».proof.Proof.Gen.ReferenceIdeal.Run
import proofs.«180571_j79903571574891_2_alg».proof.Proof.Gen.ReferenceIdeal.Read
import proofs.«180571_j79903571574891_2_alg».proof.Proof.Gen.Pre_finite_inputs
import proofs.«180571_j79903571574891_2_alg».proof.Proof.KernelArrays
import proofs.«180571_j79903571574891_2_alg».proof.Proof.RefArrays
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel was read at the ideal values. -/
theorem preserves : Cert.preserves_Kernel_KernelIdeal := trivial

/-- From arguments that agree, the kernel's results are the attention output and weights of its arguments
    (`Arrays.run`), and the reference's results, read one operation at a time, are the same two functions of its
    arguments (`Rows.output_eq`, `Rows.weights_eq`). -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.Rows.output_eq, (hagree c).1, (hagree c).2.1, (hagree c).2.2]
  · rw [Cert.ReferenceIdeal.Read.val_main_v13_eq, Cert.ReferenceIdeal.Rows.weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
